-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S20000x512 .f32) (main_arg1 : IVec S2x160000 32) (main_arg2 : FVec F S512x512 .f32) (main_arg3 : FVec F S512 .f32) (main_arg4 : FVec F S512x256 .f32) (main_arg5 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S2000x512 : Shape := ⟨2, ![2000, 512]⟩
abbrev S180000x512 : Shape := ⟨2, ![180000, 512]⟩
abbrev S1x512 : Shape := ⟨2, ![1, 512]⟩
abbrev S20000x256 : Shape := ⟨2, ![20000, 256]⟩
abbrev S2000x256 : Shape := ⟨2, ![2000, 256]⟩
abbrev S180000x256 : Shape := ⟨2, ![180000, 256]⟩
abbrev S1x256 : Shape := ⟨2, ![1, 256]⟩

abbrev nBuf : Space → Nat
  | .hbm => 122
  | .vmem => 10
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S20000, .i32⟩
  | .hbm, ⟨7, _⟩ => ⟨S1x160000, .i32⟩
  | .hbm, ⟨8, _⟩ => ⟨S160000, .i32⟩
  | .hbm, ⟨9, _⟩ => ⟨S180000, .i32⟩
  | .hbm, ⟨10, _⟩ => ⟨S1x160000, .i32⟩
  | .hbm, ⟨11, _⟩ => ⟨S160000, .i32⟩
  | .hbm, ⟨12, _⟩ => ⟨S180000, .i32⟩
  | .hbm, ⟨13, _⟩ => ⟨S_, .f32⟩
  | .hbm, ⟨14, _⟩ => ⟨S180000, .f32⟩
  | .hbm, ⟨15, _⟩ => ⟨S_, .f32⟩
  | .hbm, ⟨16, _⟩ => ⟨S20000, .f32⟩
  | .hbm, ⟨17, _⟩ => ⟨S180000x1, .i32⟩
  | .hbm, ⟨18, _⟩ => ⟨S20000, .f32⟩
  | .hbm, ⟨19, _⟩ => ⟨S20000, .f32⟩
  | .hbm, ⟨20, _⟩ => ⟨S_, .i32⟩
  | .hbm, ⟨21, _⟩ => ⟨S180000, .i32⟩
  | .hbm, ⟨22, _⟩ => ⟨S180000, .i1⟩
  | .hbm, ⟨23, _⟩ => ⟨S_, .i32⟩
  | .hbm, ⟨24, _⟩ => ⟨S180000, .i32⟩
  | .hbm, ⟨25, _⟩ => ⟨S180000, .i32⟩
  | .hbm, ⟨26, _⟩ => ⟨S180000, .i32⟩
  | .hbm, ⟨27, _⟩ => ⟨S180000x1, .i32⟩
  | .hbm, ⟨28, _⟩ => ⟨S180000, .f32⟩
  | .hbm, ⟨29, _⟩ => ⟨S_, .i32⟩
  | .hbm, ⟨30, _⟩ => ⟨S180000, .i32⟩
  | .hbm, ⟨31, _⟩ => ⟨S180000, .i1⟩
  | .hbm, ⟨32, _⟩ => ⟨S_, .i32⟩
  | .hbm, ⟨33, _⟩ => ⟨S180000, .i32⟩
  | .hbm, ⟨34, _⟩ => ⟨S180000, .i32⟩
  | .hbm, ⟨35, _⟩ => ⟨S180000, .i32⟩
  | .hbm, ⟨36, _⟩ => ⟨S180000x1, .i32⟩
  | .hbm, ⟨37, _⟩ => ⟨S180000, .f32⟩
  | .hbm, ⟨38, _⟩ => ⟨S180000, .f32⟩
  | .hbm, ⟨39, _⟩ => ⟨S20000x512, .bf16⟩
  | .hbm, ⟨40, _⟩ => ⟨S512x512, .bf16⟩
  | .hbm, ⟨41, _⟩ => ⟨S20000x512, .f32⟩
  | .hbm, ⟨42, _⟩ => ⟨S_, .i32⟩
  | .hbm, ⟨43, _⟩ => ⟨S180000, .i32⟩
  | .hbm, ⟨44, _⟩ => ⟨S180000, .i1⟩
  | .hbm, ⟨45, _⟩ => ⟨S_, .i32⟩
  | .hbm, ⟨46, _⟩ => ⟨S180000, .i32⟩
  | .hbm, ⟨47, _⟩ => ⟨S180000, .i32⟩
  | .hbm, ⟨48, _⟩ => ⟨S180000, .i32⟩
  | .hbm, ⟨49, _⟩ => ⟨S180000x1, .i32⟩
  | .hbm, ⟨50, _⟩ => ⟨S180000x512, .f32⟩
  | .hbm, ⟨51, _⟩ => ⟨S180000x1, .f32⟩
  | .hbm, ⟨52, _⟩ => ⟨S180000x512, .f32⟩
  | .hbm, ⟨53, _⟩ => ⟨S180000x512, .f32⟩
  | .hbm, ⟨54, _⟩ => ⟨S_, .f32⟩
  | .hbm, ⟨55, _⟩ => ⟨S20000x512, .f32⟩
  | .hbm, ⟨56, _⟩ => ⟨S180000x1, .i32⟩
  | .hbm, ⟨57, _⟩ => ⟨S20000x512, .f32⟩
  | .hbm, ⟨58, _⟩ => ⟨S1x512, .f32⟩
  | .hbm, ⟨59, _⟩ => ⟨S20000x512, .f32⟩
  | .hbm, ⟨60, _⟩ => ⟨S20000x512, .f32⟩
  | .hbm, ⟨61, _⟩ => ⟨S_, .f32⟩
  | .hbm, ⟨62, _⟩ => ⟨S20000x512, .f32⟩
  | .hbm, ⟨63, _⟩ => ⟨S20000x512, .f32⟩
  | .hbm, ⟨64, _⟩ => ⟨S20000, .i32⟩
  | .hbm, ⟨65, _⟩ => ⟨S1x160000, .i32⟩
  | .hbm, ⟨66, _⟩ => ⟨S160000, .i32⟩
  | .hbm, ⟨67, _⟩ => ⟨S180000, .i32⟩
  | .hbm, ⟨68, _⟩ => ⟨S1x160000, .i32⟩
  | .hbm, ⟨69, _⟩ => ⟨S160000, .i32⟩
  | .hbm, ⟨70, _⟩ => ⟨S180000, .i32⟩
  | .hbm, ⟨71, _⟩ => ⟨S_, .f32⟩
  | .hbm, ⟨72, _⟩ => ⟨S180000, .f32⟩
  | .hbm, ⟨73, _⟩ => ⟨S_, .f32⟩
  | .hbm, ⟨74, _⟩ => ⟨S20000, .f32⟩
  | .hbm, ⟨75, _⟩ => ⟨S180000x1, .i32⟩
  | .hbm, ⟨76, _⟩ => ⟨S20000, .f32⟩
  | .hbm, ⟨77, _⟩ => ⟨S20000, .f32⟩
  | .hbm, ⟨78, _⟩ => ⟨S_, .i32⟩
  | .hbm, ⟨79, _⟩ => ⟨S180000, .i32⟩
  | .hbm, ⟨80, _⟩ => ⟨S180000, .i1⟩
  | .hbm, ⟨81, _⟩ => ⟨S_, .i32⟩
  | .hbm, ⟨82, _⟩ => ⟨S180000, .i32⟩
  | .hbm, ⟨83, _⟩ => ⟨S180000, .i32⟩
  | .hbm, ⟨84, _⟩ => ⟨S180000, .i32⟩
  | .hbm, ⟨85, _⟩ => ⟨S180000x1, .i32⟩
  | .hbm, ⟨86, _⟩ => ⟨S180000, .f32⟩
  | .hbm, ⟨87, _⟩ => ⟨S_, .i32⟩
  | .hbm, ⟨88, _⟩ => ⟨S180000, .i32⟩
  | .hbm, ⟨89, _⟩ => ⟨S180000, .i1⟩
  | .hbm, ⟨90, _⟩ => ⟨S_, .i32⟩
  | .hbm, ⟨91, _⟩ => ⟨S180000, .i32⟩
  | .hbm, ⟨92, _⟩ => ⟨S180000, .i32⟩
  | .hbm, ⟨93, _⟩ => ⟨S180000, .i32⟩
  | .hbm, ⟨94, _⟩ => ⟨S180000x1, .i32⟩
  | .hbm, ⟨95, _⟩ => ⟨S180000, .f32⟩
  | .hbm, ⟨96, _⟩ => ⟨S180000, .f32⟩
  | .hbm, ⟨97, _⟩ => ⟨S20000x512, .bf16⟩
  | .hbm, ⟨98, _⟩ => ⟨S512x256, .bf16⟩
  | .hbm, ⟨99, _⟩ => ⟨S20000x256, .f32⟩
  | .hbm, ⟨100, _⟩ => ⟨S_, .i32⟩
  | .hbm, ⟨101, _⟩ => ⟨S180000, .i32⟩
  | .hbm, ⟨102, _⟩ => ⟨S180000, .i1⟩
  | .hbm, ⟨103, _⟩ => ⟨S_, .i32⟩
  | .hbm, ⟨104, _⟩ => ⟨S180000, .i32⟩
  | .hbm, ⟨105, _⟩ => ⟨S180000, .i32⟩
  | .hbm, ⟨106, _⟩ => ⟨S180000, .i32⟩
  | .hbm, ⟨107, _⟩ => ⟨S180000x1, .i32⟩
  | .hbm, ⟨108, _⟩ => ⟨S180000x256, .f32⟩
  | .hbm, ⟨109, _⟩ => ⟨S180000x1, .f32⟩
  | .hbm, ⟨110, _⟩ => ⟨S180000x256, .f32⟩
  | .hbm, ⟨111, _⟩ => ⟨S180000x256, .f32⟩
  | .hbm, ⟨112, _⟩ => ⟨S_, .f32⟩
  | .hbm, ⟨113, _⟩ => ⟨S20000x256, .f32⟩
  | .hbm, ⟨114, _⟩ => ⟨S180000x1, .i32⟩
  | .hbm, ⟨115, _⟩ => ⟨S20000x256, .f32⟩
  | .hbm, ⟨116, _⟩ => ⟨S1x256, .f32⟩
  | .hbm, ⟨117, _⟩ => ⟨S20000x256, .f32⟩
  | .hbm, ⟨118, _⟩ => ⟨S20000x256, .f32⟩
  | .hbm, ⟨119, _⟩ => ⟨S_, .f32⟩
  | .hbm, ⟨120, _⟩ => ⟨S20000x256, .f32⟩
  | .hbm, ⟨121, _⟩ => ⟨S20000x256, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .bf16⟩
  | .local _ .vmem, ⟨6, _⟩ => ⟨S2000x512, .bf16⟩
  | .local _ .vmem, ⟨7, _⟩ => ⟨S512x256, .bf16⟩
  | .local _ .vmem, ⟨8, _⟩ => ⟨S2000x256, .f32⟩
  | .local _ .vmem, ⟨9, _⟩ => ⟨S2000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_c_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_call1_cst : Ref sig .tc := ⟨.hbm, 119, rfl⟩
abbrev main_call1_v0 : Ref sig .tc := ⟨.hbm, 120, rfl⟩
abbrev main_v93 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S180000x1_S180000x256_0_1 : S180000x1.BroadcastsInDim S180000x256 (![0, 1] : Fin 2 → Fin S180000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  dot_S2000x512_S512x512_S2000x512_1_0_0_1_n_n_wf : DotDims.WF S2000x512 S512x512 S2000x512 [1] [0] [0] [1] [] []
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1
  dot_S2000x512_S512x256_S2000x256_1_0_0_1_n_n_wf : DotDims.WF S2000x512 S512x256 S2000x256 [1] [0] [0] [1] [] []
  gather_S20000x256_S180000x1_S180000x256_1_0_n_n_0_1_1256_wf : GatherDims.WF S20000x256 S180000x1 S180000x256 [1] [0] [] [0] [] 1 ![1, 256]
  scatter_S20000x256_S180000x1_S180000x256_1_0_0_1_wf : ScatterDims.WF S20000x256 S180000x1 S180000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .bf16 = 32 ∨ (Rect.block (s := S20000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)

variable [Facts₀]

def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S180000x1_S180000x256_1_0_n_n_0_1_1256 : GatherDims S20000x256 S180000x1 S180000x256 where
  offsetDims := [1]
  collapsedSliceDims := [0]
  operandBatchingDims := []
  startIndicesBatchingDims := []
  startIndexMap := [0]
  indexVectorDim := 1
  sliceSizes := ![1, 256]
  wf := gather_S20000x256_S180000x1_S180000x256_1_0_n_n_0_1_1256_wf
def scatter_S20000x256_S180000x1_S180000x256_1_0_0_1 : ScatterDims S20000x256 S180000x1 S180000x256 where
  updateWindowDims := [1]
  insertedWindowDims := [0]
  scatterDimsToOperandDims := [0]
  indexVectorDim := 1
  wf := scatter_S20000x256_S180000x1_S180000x256_1_0_0_1_wf

abbrev win0_0 : Pipeline.Window sig grid0 :=
  Pipeline.Window.ofSpec (Memref.whole main_v27) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v74) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v76) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S180000x512 : Shape := ⟨2, ![180000, 512]⟩
abbrev S1x512 : Shape := ⟨2, ![1, 512]⟩
abbrev S20000x256 : Shape := ⟨2, ![20000, 256]⟩
abbrev S180000x256 : Shape := ⟨2, ![180000, 256]⟩
abbrev S1x256 : Shape := ⟨2, ![1, 256]⟩

abbrev nBuf : Space → Nat
  | .hbm => 118
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S20000, .i32⟩
  | .hbm, ⟨7, _⟩ => ⟨S1x160000, .i32⟩
  | .hbm, ⟨8, _⟩ => ⟨S160000, .i32⟩
  | .hbm, ⟨9, _⟩ => ⟨S180000, .i32⟩
  | .hbm, ⟨10, _⟩ => ⟨S1x160000, .i32⟩
  | .hbm, ⟨11, _⟩ => ⟨S160000, .i32⟩
  | .hbm, ⟨12, _⟩ => ⟨S180000, .i32⟩
  | .hbm, ⟨13, _⟩ => ⟨S_, .f32⟩
  | .hbm, ⟨14, _⟩ => ⟨S180000, .f32⟩
  | .hbm, ⟨15, _⟩ => ⟨S_, .f32⟩
  | .hbm, ⟨16, _⟩ => ⟨S20000, .f32⟩
  | .hbm, ⟨17, _⟩ => ⟨S180000x1, .i32⟩
  | .hbm, ⟨18, _⟩ => ⟨S20000, .f32⟩
  | .hbm, ⟨19, _⟩ => ⟨S20000, .f32⟩
  | .hbm, ⟨20, _⟩ => ⟨S_, .i32⟩
  | .hbm, ⟨21, _⟩ => ⟨S180000, .i32⟩
  | .hbm, ⟨22, _⟩ => ⟨S180000, .i1⟩
  | .hbm, ⟨23, _⟩ => ⟨S_, .i32⟩
  | .hbm, ⟨24, _⟩ => ⟨S180000, .i32⟩
  | .hbm, ⟨25, _⟩ => ⟨S180000, .i32⟩
  | .hbm, ⟨26, _⟩ => ⟨S180000, .i32⟩
  | .hbm, ⟨27, _⟩ => ⟨S180000x1, .i32⟩
  | .hbm, ⟨28, _⟩ => ⟨S180000, .f32⟩
  | .hbm, ⟨29, _⟩ => ⟨S_, .i32⟩
  | .hbm, ⟨30, _⟩ => ⟨S180000, .i32⟩
  | .hbm, ⟨31, _⟩ => ⟨S180000, .i1⟩
  | .hbm, ⟨32, _⟩ => ⟨S_, .i32⟩
  | .hbm, ⟨33, _⟩ => ⟨S180000, .i32⟩
  | .hbm, ⟨34, _⟩ => ⟨S180000, .i32⟩
  | .hbm, ⟨35, _⟩ => ⟨S180000, .i32⟩
  | .hbm, ⟨36, _⟩ => ⟨S180000x1, .i32⟩
  | .hbm, ⟨37, _⟩ => ⟨S180000, .f32⟩
  | .hbm, ⟨38, _⟩ => ⟨S180000, .f32⟩
  | .hbm, ⟨39, _⟩ => ⟨S20000x512, .f32⟩
  | .hbm, ⟨40, _⟩ => ⟨S_, .i32⟩
  | .hbm, ⟨41, _⟩ => ⟨S180000, .i32⟩
  | .hbm, ⟨42, _⟩ => ⟨S180000, .i1⟩
  | .hbm, ⟨43, _⟩ => ⟨S_, .i32⟩
  | .hbm, ⟨44, _⟩ => ⟨S180000, .i32⟩
  | .hbm, ⟨45, _⟩ => ⟨S180000, .i32⟩
  | .hbm, ⟨46, _⟩ => ⟨S180000, .i32⟩
  | .hbm, ⟨47, _⟩ => ⟨S180000x1, .i32⟩
  | .hbm, ⟨48, _⟩ => ⟨S180000x512, .f32⟩
  | .hbm, ⟨49, _⟩ => ⟨S180000x1, .f32⟩
  | .hbm, ⟨50, _⟩ => ⟨S180000x512, .f32⟩
  | .hbm, ⟨51, _⟩ => ⟨S180000x512, .f32⟩
  | .hbm, ⟨52, _⟩ => ⟨S_, .f32⟩
  | .hbm, ⟨53, _⟩ => ⟨S20000x512, .f32⟩
  | .hbm, ⟨54, _⟩ => ⟨S180000x1, .i32⟩
  | .hbm, ⟨55, _⟩ => ⟨S20000x512, .f32⟩
  | .hbm, ⟨56, _⟩ => ⟨S1x512, .f32⟩
  | .hbm, ⟨57, _⟩ => ⟨S20000x512, .f32⟩
  | .hbm, ⟨58, _⟩ => ⟨S20000x512, .f32⟩
  | .hbm, ⟨59, _⟩ => ⟨S_, .f32⟩
  | .hbm, ⟨60, _⟩ => ⟨S20000x512, .f32⟩
  | .hbm, ⟨61, _⟩ => ⟨S20000x512, .f32⟩
  | .hbm, ⟨62, _⟩ => ⟨S20000, .i32⟩
  | .hbm, ⟨63, _⟩ => ⟨S1x160000, .i32⟩
  | .hbm, ⟨64, _⟩ => ⟨S160000, .i32⟩
  | .hbm, ⟨65, _⟩ => ⟨S180000, .i32⟩
  | .hbm, ⟨66, _⟩ => ⟨S1x160000, .i32⟩
  | .hbm, ⟨67, _⟩ => ⟨S160000, .i32⟩
  | .hbm, ⟨68, _⟩ => ⟨S180000, .i32⟩
  | .hbm, ⟨69, _⟩ => ⟨S_, .f32⟩
  | .hbm, ⟨70, _⟩ => ⟨S180000, .f32⟩
  | .hbm, ⟨71, _⟩ => ⟨S_, .f32⟩
  | .hbm, ⟨72, _⟩ => ⟨S20000, .f32⟩
  | .hbm, ⟨73, _⟩ => ⟨S180000x1, .i32⟩
  | .hbm, ⟨74, _⟩ => ⟨S20000, .f32⟩
  | .hbm, ⟨75, _⟩ => ⟨S20000, .f32⟩
  | .hbm, ⟨76, _⟩ => ⟨S_, .i32⟩
  | .hbm, ⟨77, _⟩ => ⟨S180000, .i32⟩
  | .hbm, ⟨78, _⟩ => ⟨S180000, .i1⟩
  | .hbm, ⟨79, _⟩ => ⟨S_, .i32⟩
  | .hbm, ⟨80, _⟩ => ⟨S180000, .i32⟩
  | .hbm, ⟨81, _⟩ => ⟨S180000, .i32⟩
  | .hbm, ⟨82, _⟩ => ⟨S180000, .i32⟩
  | .hbm, ⟨83, _⟩ => ⟨S180000x1, .i32⟩
  | .hbm, ⟨84, _⟩ => ⟨S180000, .f32⟩
  | .hbm, ⟨85, _⟩ => ⟨S_, .i32⟩
  | .hbm, ⟨86, _⟩ => ⟨S180000, .i32⟩
  | .hbm, ⟨87, _⟩ => ⟨S180000, .i1⟩
  | .hbm, ⟨88, _⟩ => ⟨S_, .i32⟩
  | .hbm, ⟨89, _⟩ => ⟨S180000, .i32⟩
  | .hbm, ⟨90, _⟩ => ⟨S180000, .i32⟩
  | .hbm, ⟨91, _⟩ => ⟨S180000, .i32⟩
  | .hbm, ⟨92, _⟩ => ⟨S180000x1, .i32⟩
  | .hbm, ⟨93, _⟩ => ⟨S180000, .f32⟩
  | .hbm, ⟨94, _⟩ => ⟨S180000, .f32⟩
  | .hbm, ⟨95, _⟩ => ⟨S20000x256, .f32⟩
  | .hbm, ⟨96, _⟩ => ⟨S_, .i32⟩
  | .hbm, ⟨97, _⟩ => ⟨S180000, .i32⟩
  | .hbm, ⟨98, _⟩ => ⟨S180000, .i1⟩
  | .hbm, ⟨99, _⟩ => ⟨S_, .i32⟩
  | .hbm, ⟨100, _⟩ => ⟨S180000, .i32⟩
  | .hbm, ⟨101, _⟩ => ⟨S180000, .i32⟩
  | .hbm, ⟨102, _⟩ => ⟨S180000, .i32⟩
  | .hbm, ⟨103, _⟩ => ⟨S180000x1, .i32⟩
  | .hbm, ⟨104, _⟩ => ⟨S180000x256, .f32⟩
  | .hbm, ⟨105, _⟩ => ⟨S180000x1, .f32⟩
  | .hbm, ⟨106, _⟩ => ⟨S180000x256, .f32⟩
  | .hbm, ⟨107, _⟩ => ⟨S180000x256, .f32⟩
  | .hbm, ⟨108, _⟩ => ⟨S_, .f32⟩
  | .hbm, ⟨109, _⟩ => ⟨S20000x256, .f32⟩
  | .hbm, ⟨110, _⟩ => ⟨S180000x1, .i32⟩
  | .hbm, ⟨111, _⟩ => ⟨S20000x256, .f32⟩
  | .hbm, ⟨112, _⟩ => ⟨S1x256, .f32⟩
  | .hbm, ⟨113, _⟩ => ⟨S20000x256, .f32⟩
  | .hbm, ⟨114, _⟩ => ⟨S20000x256, .f32⟩
  | .hbm, ⟨115, _⟩ => ⟨S_, .f32⟩
  | .hbm, ⟨116, _⟩ => ⟨S20000x256, .f32⟩
  | .hbm, ⟨117, _⟩ => ⟨S20000x256, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call1_cst : Ref sig .tc := ⟨.hbm, 115, rfl⟩
abbrev main_call1_v0 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S180000x1_S180000x256_0_1 : S180000x1.BroadcastsInDim S180000x256 (![0, 1] : Fin 2 → Fin S180000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  dot_S20000x512_S512x512_S20000x512_1_0_0_1_n_n_wf : DotDims.WF S20000x512 S512x512 S20000x512 [1] [0] [0] [1] [] []
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1
  dot_S20000x512_S512x256_S20000x256_1_0_0_1_n_n_wf : DotDims.WF S20000x512 S512x256 S20000x256 [1] [0] [0] [1] [] []
  gather_S20000x256_S180000x1_S180000x256_1_0_n_n_0_1_1256_wf : GatherDims.WF S20000x256 S180000x1 S180000x256 [1] [0] [] [0] [] 1 ![1, 256]
  scatter_S20000x256_S180000x1_S180000x256_1_0_0_1_wf : ScatterDims.WF S20000x256 S180000x1 S180000x256 [1] [0] [0] 1

variable [Facts₀]

def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S180000x1_S180000x256_1_0_n_n_0_1_1256 : GatherDims S20000x256 S180000x1 S180000x256 where
  offsetDims := [1]
  collapsedSliceDims := [0]
  operandBatchingDims := []
  startIndicesBatchingDims := []
  startIndexMap := [0]
  indexVectorDim := 1
  sliceSizes := ![1, 256]
  wf := gather_S20000x256_S180000x1_S180000x256_1_0_n_n_0_1_1256_wf
def scatter_S20000x256_S180000x1_S180000x256_1_0_0_1 : ScatterDims S20000x256 S180000x1 S180000x256 where
  updateWindowDims := [1]
  insertedWindowDims := [0]
  scatterDimsToOperandDims := [0]
  indexVectorDim := 1
  wf := scatter_S20000x256_S180000x1_S180000x256_1_0_0_1_wf

class Facts : Prop extends Facts₀ where

variable [Facts]
-- ==== Proof.KernelRun.lean ====
/-
  The idealized kernel's run with its result named.

  @main is eight segments in a row: the host operations before the first matrix product, the first
  pallas_call, three stretches of host operations, the second pallas_call, two more stretches. The buffer
  contents at each boundary are a fold from the launch memory (`Gen.W0 … Gen.W8`): a host stretch applies its
  operations in order, a pallas_call replaces its three arrays by what its write-backs leave and keeps every
  other buffer. Every weakly fair execution ends with each unscoped buffer at the last fold `Gen.W8`; read at
  the result buffer that is the value of the program, and read at an argument it is the launch contents.
-/
import proofs.«133479_j6786048328632_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, the
    result buffer holding the last boundary's contents `Gen.W8` at it, and the six arguments as launched. -/
theorem run_named : θ_run defs (onTc (τ := τ) (main (F := F))) ⟨m, fun _ => 0, ρ⟩ (fun r => ∀ c : Dev nD,
      r.2.mem ((c.tc : Thread nD τ).loc main_v93) = W8 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v93 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Product.lean ====
/-
  The specification both programs meet at each layer's dense step: the product of a 20000 × 512 array of
  extended reals with a 512 × p array, entry by entry,

      (A · B)[i, j] = Σ_{k < 512} A[i, k] · B[k, j].

  On the extended reals `+` is commutative and associative, so the sum over `k` does not depend on how a
  program groups it; nothing here needs the factors to be finite.
-/
import Idealize.ShloMosaic.PureOps.Ideal.Laws
import Idealize.ShloMosaic.Lib.ValueIdx

noncomputable section

namespace Cert.Gcn

open Idealize.ShloMosaic Idealize.ShloMosaic.ValueIdx

/-- The 20000 × p product of a 20000 × 512 array and a 512 × p array of extended reals. -/
def prod (p : ℕ) (A : (⟨2, ![20000, 512]⟩ : Shape).Idx → EReal) (B : (⟨2, ![512, p]⟩ : Shape).Idx → EReal) :
    (⟨2, ![20000, p]⟩ : Shape).Idx → EReal :=
  fun i => ∑ k : Fin 512, A (ix2 (n0 := 20000) (n1 := 512) (i 0) k) * B (ix2 (n0 := 512) (n1 := p) k (i 1))

/-- The product at row `r`, column `q`. -/
theorem prod_apply (p : ℕ) (A : (⟨2, ![20000, 512]⟩ : Shape).Idx → EReal) (B : (⟨2, ![512, p]⟩ : Shape).Idx → EReal)
    (r : Fin 20000) (q : Fin p) :
    prod p A B (ix2 r q) = ∑ k : Fin 512, A (ix2 r k) * B (ix2 k q) := rfl

/-- Row `2000 · t + r` of the array is row `r` of its `t`-th block of 2000 rows: the row the kernel's grid point `t`
    computes. -/
theorem block_row (t : Fin 10) (r : Fin 2000) : t.val * 2000 + 1 * r.val < 20000 := by
  have ht := t.isLt; have hr := r.isLt; omega

/-- Every row lies in exactly the block its quotient by 2000 names. -/
theorem row_split (i : Fin 20000) : i.val / 2000 < 10 ∧ (i.val / 2000) * 2000 ≤ i.val ∧ i.val < (i.val / 2000) * 2000 + 2000 := by
  have hi := i.isLt; omega

end Cert.Gcn

end
-- ==== Proof.Region0.lean ====
/-
  What the first pallas_call leaves in its output array, whatever the buffers hold when it is entered.

  The grid has 10 points; point `t` stages rows `2000·t … 2000·t + 1999` of the left operand, the whole right
  operand, and rows `2000·t …` of the output. The body stores the matrix product of the two staged blocks into a
  zero accumulator, so entry `(r, q)` of the block written back at `t` is `Σ_k x[2000·t + r, k] · w[k, q]`: row
  `2000·t + r` of the whole product. The ten blocks tile the 20000 rows (row `i` lies in block `i / 2000`), so
  after the last point the output array is the whole product `Gcn.prod 512`.
-/
import proofs.«133479_j6786048328632_1_alg».proof.Proof.Gen.KernelIdeal.Frame
import proofs.«133479_j6786048328632_1_alg».proof.Proof.Product
import Idealize.ShloMosaic.Lib.Pipeline.Value
import Idealize.ShloMosaic.PureOps.Ideal.Laws
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the region is entered: a parameter
variable (V : (c : Dev nD) → (b : Ref sig .tc) → Buf (Elt Ideal) ((c : Thread nD τ).loc b))

theorem off_zero : (![0, 0] : Fin 2 → Nat) = fun _ => 0 := funext fun a => by fin_cases a <;> rfl

/-! ## The index maps, decided once over the ten grid points -/

/-- The left operand's and the output's blocks move down one block of rows per point; the right operand's block
    never moves. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := Nat.lt_of_lt_of_eq t.isLt N_0

/-- Row `r` of the block of rows staged at point `t`, as a row of the array. -/
def rowAt (t : Fin cfg0.N) (r : Fin 2000) : Fin 20000 :=
  ⟨t.val * 2000 + 1 * r.val, by have ht := point_lt t; have hr := r.isLt; omega⟩

/-! ## The body's stored value, entry by entry -/

/-- The contraction index of the block product is one axis of extent 512. -/
abbrev blockDot := dot_S2000x512_S512x512_S2000x512_1_0_0_1_n_n

theorem lhs_row (j : S2000x512.Idx) (k : blockDot.contr.Idx) : (blockDot.lhsIdx j k 0).val = (j 0).val := by
  unfold DotDims.lhsIdx
  rw [dif_neg (show ¬(0 : Fin S2000x512.rank) ∈ blockDot.lhsBatch by decide), dif_pos (show (0 : Fin S2000x512.rank) ∈ blockDot.lhsNonContracting by decide)]
  rfl
theorem lhs_col (j : S2000x512.Idx) (k : blockDot.contr.Idx) : (blockDot.lhsIdx j k 1).val = (k ⟨0, by decide⟩).val :=
  blockDot.lhsIdx_val_of_single rfl j k
theorem rhs_row (j : S2000x512.Idx) (k : blockDot.contr.Idx) : (blockDot.rhsIdx j k 0).val = (k ⟨0, by decide⟩).val :=
  blockDot.rhsIdx_val_of_single rfl j k
theorem rhs_col (j : S2000x512.Idx) (k : blockDot.contr.Idx) : (blockDot.rhsIdx j k 1).val = (j 1).val := by
  unfold DotDims.rhsIdx
  rw [dif_neg (show ¬(1 : Fin S512x512.rank) ∈ blockDot.rhsBatch by decide), dif_pos (show (1 : Fin S512x512.rank) ∈ blockDot.rhsNonContracting by decide)]
  rfl

/-- Entry `(r, q)` of what the body stores is the sum over `k` of the left block's `(r, k)` times the right block's
    `(k, q)`: the accumulator it adds to is zero. -/
theorem stored_apply (x0 : FVec Ideal S2000x512 .bf16) (x1 : FVec Ideal S512x512 .bf16) (r : Fin 2000) (q : Fin 512) :
    (k0_pay1 (F := Ideal) x0 x1 (ix2 r q) : EReal) = ∑ k : Fin 512, (x0 (ix2 r k) : EReal) * (x1 (ix2 k q) : EReal) := by
  unfold k0_pay1
  refine (Ideal.matmul_constant_zero_apply blockDot none _ _ (ix2 r q)).trans ?_
  rw [← Equiv.sum_comp (contrEquiv1 blockDot 512 rfl rfl).symm]
  refine Finset.sum_congr rfl fun k _ => ?_
  have hk := contrEquiv1_symm_val blockDot 512 rfl rfl k
  have el : blockDot.lhsIdx (ix2 r q) ((contrEquiv1 blockDot 512 rfl rfl).symm k) = ix2 r k := funext fun a => Fin.ext (by
    match a with
    | ⟨0, _⟩ => exact lhs_row _ _
    | ⟨1, _⟩ => exact (lhs_col _ _).trans hk)
  have er : blockDot.rhsIdx (ix2 r q) ((contrEquiv1 blockDot 512 rfl rfl).symm k) = ix2 k q := funext fun a => Fin.ext (by
    match a with
    | ⟨0, _⟩ => exact (rhs_row _ _).trans hk
    | ⟨1, _⟩ => exact rhs_col _ _)
  rw [el, er, shapeCast_self, shapeCast_self]

/-! ## The staged blocks, read off the arrays -/

/-- Entry `(r, k)` of the left operand's block at point `t` is entry `(2000·t + r, k)` of its array. -/
theorem left_block (c : Dev nD) (t : Fin cfg0.N) (r : Fin 2000) (k : Fin 512) :
    iblk0 V c 0 t (ix2 r k) = V c main_v27 (ix2 (rowAt t r) k) := by
  obtain ⟨e0, e1, -, -, -, -⟩ := index_facts t
  show V c main_v27 (((cfg0.win 0).blk t).view.emb (ix2 r k)) = V c main_v27 (ix2 (rowAt t r) k)
  refine congrArg (V c main_v27) (funext fun a => Fin.ext ?_)
  match a with
  | ⟨0, _⟩ => show win0_0.index t (0 : Fin 2) * 2000 + 1 * r.val = t.val * 2000 + 1 * r.val; rw [e0]
  | ⟨1, _⟩ => show win0_0.index t (1 : Fin 2) * 512 + 1 * k.val = k.val; rw [e1]; omega

/-- The right operand's block is its whole array at every point. -/
theorem right_block (c : Dev nD) (t : Fin cfg0.N) (k : Fin 512) (q : Fin 512) :
    iblk0 V c 1 t (ix2 k q) = V c main_v28 (ix2 k q) := by
  obtain ⟨-, -, e2, e3, -, -⟩ := index_facts t
  show V c main_v28 (((cfg0.win 1).blk t).view.emb (ix2 k q)) = V c main_v28 (ix2 k q)
  refine congrArg (V c main_v28) (funext fun a => Fin.ext ?_)
  match a with
  | ⟨0, _⟩ => show win0_1.index t (0 : Fin 2) * 512 + 1 * k.val = k.val; rw [e2]; omega
  | ⟨1, _⟩ => show win0_1.index t (1 : Fin 2) * 512 + 1 * q.val = q.val; rw [e3]; omega

/-- Entry `(r, q)` of the output's block at point `t` is entry `(2000·t + r, q)` of its array. -/
theorem out_block (t : Fin cfg0.N) (r : Fin 2000) (q : Fin 512) :
    ((cfg0.win 2).blk t).view.emb (ix2 r q) = ix2 (rowAt t r) q := by
  obtain ⟨-, -, -, -, e4, e5⟩ := index_facts t
  refine funext fun a => Fin.ext ?_
  match a with
  | ⟨0, _⟩ => show win0_2.index t (0 : Fin 2) * 2000 + 1 * r.val = t.val * 2000 + 1 * r.val; rw [e4]
  | ⟨1, _⟩ => show win0_2.index t (1 : Fin 2) * 512 + 1 * q.val = q.val; rw [e5]; omega

/-! ## What each point writes back, and the array after the last point -/

/-- The whole product of the two arrays the region finds. -/
abbrev whole (c : Dev nD) : S20000x512.Idx → EReal := Cert.Gcn.prod 512 (V c main_v27) (V c main_v28)

/-- Point `t` writes back block `t` of the whole product. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero off_zero]
  simp only [View.ld_unit_zero (S := S2000x512) off_zero, View.ld_unit_zero (S := S512x512) off_zero]
  funext j
  obtain ⟨r, q, rfl⟩ : ∃ (r : Fin 2000) (q : Fin 512), j = ix2 r q := ⟨j 0, j 1, eq_ix2 j⟩
  show (k0_pay1 (F := Ideal) (iblk0 V c 0 t) (iblk0 V c 1 t) (ix2 r q) : EReal) = whole V c (((cfg0.win 2).blk t).view.emb (ix2 r q))
  rw [out_block t r q]
  refine (stored_apply (iblk0 V c 0 t) (iblk0 V c 1 t) r q).trans ?_
  refine Finset.sum_congr rfl fun k _ => ?_
  rw [left_block V c t r k, right_block V c t k q]

/-- An index of the output array is in point `t`'s block iff each coordinate is in the block's range on its axis. -/
theorem mem_block (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v29).slice (win0_2.rect t)).set ↔ _
  rw [View.set_slice_whole, Rect.mem_set_unit]
  exact Iff.rfl

/-- The ten blocks cover the array: row `i` is in the block of point `i / 2000`. -/
theorem covered (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  have hN : cfg0.N = 10 := N_0
  let t : Fin cfg0.N := ⟨(i 0).val / 2000, by rw [hN]; omega⟩
  obtain ⟨-, -, -, -, e4, e5⟩ := index_facts t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 512 ≤ (i 1).val ∧ (i 1).val < win0_2.index t (1 : Fin 2) * 512 + 512; rw [e5]; omega

/-- THE OUTPUT ARRAY after the region: the whole product of the arrays it found. -/
theorem final (c : Dev nD) : (dat0 (F := Ideal) V c).arrAt 2 cfg0.N = whole V c :=
  (dat0 V c).arrAt_eq_of_cover 2 (whole V c) (fun t _ => flushed_eq V c t) covered

end Cert.KernelIdeal.Region0

end
-- ==== Proof.RefProduct.lean ====
/-
  The reference's dense step: at the ideal values the host's `dot_general` of a 20000 × 512 array with a
  512 × p array (contracting the first's columns against the second's rows) is the product `Gcn.prod p`, entry by
  entry — the textbook sum over the 512 contraction indices, with no accumulator.
-/
import proofs.«133479_j6786048328632_1_alg».proof.Proof.Gen.ReferenceIdeal.Read
import proofs.«133479_j6786048328632_1_alg».proof.Proof.Product

noncomputable section

namespace Cert.ReferenceIdeal.Dense

open Cert.ReferenceIdeal Cert.ReferenceIdeal.Gen Idealize.ShloMosaic Idealize.ShloMosaic.ValueIdx

abbrev dot1 := dot_S20000x512_S512x512_S20000x512_1_0_0_1_n_n
abbrev dot2 := dot_S20000x512_S512x256_S20000x256_1_0_0_1_n_n

/-- Layer 1: `x @ W1` on the host is the 20000 × 512 product. -/
theorem dot1_eq (A : FVec Ideal S20000x512 .f32) (B : FVec Ideal S512x512 .f32) :
    Host.dotGeneral (F := Ideal) dot1 none A B = Cert.Gcn.prod 512 A B := by
  funext i
  obtain ⟨r, q, rfl⟩ : ∃ (r : Fin 20000) (q : Fin 512), i = ix2 r q := ⟨i 0, i 1, eq_ix2 i⟩
  simp only [Host.dotGeneral]
  rw [Ideal.dotGeneral_apply, ← Equiv.sum_comp (contrEquiv1 dot1 512 rfl rfl).symm]
  refine Finset.sum_congr rfl fun k _ => ?_
  have hk := contrEquiv1_symm_val dot1 512 rfl rfl k
  have el : dot1.lhsIdx (ix2 r q) ((contrEquiv1 dot1 512 rfl rfl).symm k) = ix2 r k := funext fun a => Fin.ext (by
    match a with
    | ⟨0, _⟩ => exact Cert.ReferenceIdeal.Read.lhs_main_v27_0 _ _
    | ⟨1, _⟩ => exact (Cert.ReferenceIdeal.Read.lhs_main_v27_1 _ _).trans hk)
  have er : dot1.rhsIdx (ix2 r q) ((contrEquiv1 dot1 512 rfl rfl).symm k) = ix2 k q := funext fun a => Fin.ext (by
    match a with
    | ⟨0, _⟩ => exact (Cert.ReferenceIdeal.Read.rhs_main_v27_0 _ _).trans hk
    | ⟨1, _⟩ => exact Cert.ReferenceIdeal.Read.rhs_main_v27_1 _ _)
  rw [el, er]

/-- Layer 2: `h @ W2` on the host is the 20000 × 256 product. -/
theorem dot2_eq (A : FVec Ideal S20000x512 .f32) (B : FVec Ideal S512x256 .f32) :
    Host.dotGeneral (F := Ideal) dot2 none A B = Cert.Gcn.prod 256 A B := by
  funext i
  obtain ⟨r, q, rfl⟩ : ∃ (r : Fin 20000) (q : Fin 256), i = ix2 r q := ⟨i 0, i 1, eq_ix2 i⟩
  simp only [Host.dotGeneral]
  rw [Ideal.dotGeneral_apply, ← Equiv.sum_comp (contrEquiv1 dot2 512 rfl rfl).symm]
  refine Finset.sum_congr rfl fun k _ => ?_
  have hk := contrEquiv1_symm_val dot2 512 rfl rfl k
  have el : dot2.lhsIdx (ix2 r q) ((contrEquiv1 dot2 512 rfl rfl).symm k) = ix2 r k := funext fun a => Fin.ext (by
    match a with
    | ⟨0, _⟩ => exact Cert.ReferenceIdeal.Read.lhs_main_v72_0 _ _
    | ⟨1, _⟩ => exact (Cert.ReferenceIdeal.Read.lhs_main_v72_1 _ _).trans hk)
  have er : dot2.rhsIdx (ix2 r q) ((contrEquiv1 dot2 512 rfl rfl).symm k) = ix2 k q := funext fun a => Fin.ext (by
    match a with
    | ⟨0, _⟩ => exact (Cert.ReferenceIdeal.Read.rhs_main_v72_0 _ _).trans hk
    | ⟨1, _⟩ => exact Cert.ReferenceIdeal.Read.rhs_main_v72_1 _ _)
  rw [el, er]

end Cert.ReferenceIdeal.Dense

end
-- ==== Proof.HostLayer1.lean ====
/-
  The first layer of the idealized kernel, read off the fold of buffer contents stretch by stretch.

  Before the first pallas_call the host builds, from `edge_index` alone, the source and target index vectors (each
  followed by one self-loop per node) and the edge weights `rsqrt(deg)[src] · rsqrt(deg)[dst]`, and casts the layer's
  input and weight to bf16. Each of these buffers holds the reference's own stage of the same argument — the same
  operations in the same order. The call's output array is the product of the two cast arrays, which on extended
  reals is the host's `dot_general` of the uncast ones. The next two stretches gather the product's rows by source,
  scale by the edge weights, scatter-add by target, add the bias and rectify: the reference's stage `val_main_v44`.
  The argument arrays are written by nothing, so each boundary finds them as launched.
-/
import proofs.«133479_j6786048328632_1_alg».proof.Proof.Gen.KernelIdeal.Frame
import proofs.«133479_j6786048328632_1_alg».proof.Proof.Gen.ReferenceIdeal.Read
import proofs.«133479_j6786048328632_1_alg».proof.Proof.Region0
import proofs.«133479_j6786048328632_1_alg».proof.Proof.RefProduct
import Idealize.ShloMosaic.Lib.StableHlo.Run

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.StableHlo
open Cert.ReferenceIdeal.Read (val_main_v3 val_main_v6 val_main_v26 val_main_v27 val_main_v44)

/-- One stretch of host operations read at a buffer: each operation's result at its own buffer is its function of
    its operands, any other buffer is unchanged; `ls` are the facts already known about the stretch's entry contents. -/
syntax "walk" "[" Lean.Parser.Tactic.simpLemma,* "]" : tactic
macro_rules
  | `(tactic| walk [$ls,*]) => `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ls,*])

variable (m : (ℓ : Loc nD τ sig) → Buf (Elt Ideal) ℓ) (ρ : Dev nD → PrngReg)

/-! ## Before the first call -/

/-- The source indices: `edge_index[0]` followed by `0 … 19999`. -/
theorem src_idx (c : Dev nD) : W1 m ρ c (Proc.devRef .tc main_v3) = val_main_v3 (F := Ideal) (m ((c.tc : Thread nD τ).loc main_arg1)) := by
  show StableHlo.after hostOps0 (W0 m ρ c) (Proc.devRef .tc main_v3) = _
  walk [hostOps0] <;> rfl

/-- The target indices: `edge_index[1]` followed by `0 … 19999`. -/
theorem dst_idx (c : Dev nD) : W1 m ρ c (Proc.devRef .tc main_v6) = val_main_v6 (F := Ideal) (m ((c.tc : Thread nD τ).loc main_arg1)) := by
  show StableHlo.after hostOps0 (W0 m ρ c) (Proc.devRef .tc main_v6) = _
  walk [hostOps0] <;> rfl

set_option maxHeartbeats 4000000 in
/-- The edge weights `rsqrt(deg)[src] · rsqrt(deg)[dst]`, `deg` the scatter-add of ones by target. -/
theorem edge_weight (c : Dev nD) : W1 m ρ c (Proc.devRef .tc main_v26) = val_main_v26 (F := Ideal) (m ((c.tc : Thread nD τ).loc main_arg1)) := by
  show StableHlo.after hostOps0 (W0 m ρ c) (Proc.devRef .tc main_v26) = _
  walk [hostOps0] <;> rfl

/-- The layer's input, cast to bf16. -/
theorem input_cast (c : Dev nD) : W1 m ρ c (Proc.devRef .tc main_v27) = truncf (F := Ideal) .bf16 (m ((c.tc : Thread nD τ).loc main_arg0)) bitsLt_bf16_f32 := by
  show StableHlo.after hostOps0 (W0 m ρ c) (Proc.devRef .tc main_v27) = _
  walk [hostOps0] <;> rfl

/-- The layer's weight, cast to bf16. -/
theorem weight_cast (c : Dev nD) : W1 m ρ c (Proc.devRef .tc main_v28) = truncf (F := Ideal) .bf16 (m ((c.tc : Thread nD τ).loc main_arg2)) bitsLt_bf16_f32 := by
  show StableHlo.after hostOps0 (W0 m ρ c) (Proc.devRef .tc main_v28) = _
  walk [hostOps0] <;> rfl

/-- The first bias is as launched when the first call is entered. -/
theorem bias_entry (c : Dev nD) : W1 m ρ c (Proc.devRef .tc main_arg3) = m ((c.tc : Thread nD τ).loc main_arg3) := by
  show StableHlo.after hostOps0 (W0 m ρ c) (Proc.devRef .tc main_arg3) = _
  walk [hostOps0] <;> rfl

/-! ## The first call's exit -/

theorem cast_id {s : Shape} (x : FVec Ideal s .f32) (h : FTy.bf16.bits < FTy.f32.bits) : truncf (F := Ideal) .bf16 x h = x := by
  funext i; simp [truncf]

/-- After the first call its output array is the host's `dot_general` of the layer's input and weight. -/
theorem exit_out (c : Dev nD) :
    W2 m ρ c (Proc.devRef .tc main_v29)
      = val_main_v27 (F := Ideal) (m ((c.tc : Thread nD τ).loc main_arg0)) (m ((c.tc : Thread nD τ).loc main_arg2)) := by
  refine ((W2_arr m ρ c 2).trans (Region0.final (V1 m ρ) c)).trans ?_
  show Cert.Gcn.prod 512 (W1 m ρ c (Proc.devRef .tc main_v27)) (W1 m ρ c (Proc.devRef .tc main_v28)) = _
  rw [input_cast, weight_cast, cast_id, cast_id]
  exact (Cert.ReferenceIdeal.Dense.dot1_eq _ _).symm

/-- Every buffer that is not one of the call's three arrays leaves it as it entered. -/
theorem exit_keep (c : Dev nD) {r : Ref sig .tc} (h : ∀ w, Pipeline.arrRef spec0 w ≠ r) :
    W2 m ρ c (no_index (Proc.devRef .tc r)) = W1 m ρ c (Proc.devRef .tc r) :=
  W2_of_ne m ρ c r h

/-! ## After the first call: gather, scale, scatter-add, bias, rectifier -/

set_option maxHeartbeats 4000000 in
/-- The first layer's result is the reference's stage `val_main_v44` of the kernel's own arguments. -/
theorem layer_out (c : Dev nD) :
    W4 m ρ c (Proc.devRef .tc main_v46)
      = val_main_v44 (F := Ideal) (m ((c.tc : Thread nD τ).loc main_arg0)) (m ((c.tc : Thread nD τ).loc main_arg1))
          (m ((c.tc : Thread nD τ).loc main_arg2)) (m ((c.tc : Thread nD τ).loc main_arg3)) := by
  show StableHlo.after hostOps1_1 (StableHlo.after hostOps1 (W2 m ρ c)) (Proc.devRef .tc main_v46) = _
  walk [hostOps1_1, hostOps1]
  rw [exit_keep m ρ c (r := main_v3) (by decide), exit_keep m ρ c (r := main_v6) (by decide), exit_keep m ρ c (r := main_v26) (by decide),
    exit_keep m ρ c (r := main_arg3) (by decide), exit_out, src_idx, dst_idx, edge_weight, bias_entry]
  rfl

end Cert.KernelIdeal.Layer1

end
-- ==== Proof.Region1.lean ====
/-
  What the second pallas_call leaves in its output array, whatever the buffers hold when it is entered.

  The grid has 10 points; point `t` stages rows `2000·t … 2000·t + 1999` of the left operand, the whole right
  operand, and rows `2000·t …` of the output. The body stores the matrix product of the two staged blocks into a
  zero accumulator, so entry `(r, q)` of the block written back at `t` is `Σ_k x[2000·t + r, k] · w[k, q]`: row
  `2000·t + r` of the whole product. The ten blocks tile the 20000 rows (row `i` lies in block `i / 2000`), so
  after the last point the output array is the whole product `Gcn.prod 256`.
-/
import proofs.«133479_j6786048328632_1_alg».proof.Proof.Gen.KernelIdeal.Frame
import proofs.«133479_j6786048328632_1_alg».proof.Proof.Product
import Idealize.ShloMosaic.Lib.Pipeline.Value
import Idealize.ShloMosaic.PureOps.Ideal.Laws
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the region is entered: a parameter
variable (V : (c : Dev nD) → (b : Ref sig .tc) → Buf (Elt Ideal) ((c : Thread nD τ).loc b))

theorem off_zero : (![0, 0] : Fin 2 → Nat) = fun _ => 0 := funext fun a => by fin_cases a <;> rfl

/-! ## The index maps, decided once over the ten grid points -/

/-- The left operand's and the output's blocks move down one block of rows per point; the right operand's block
    never moves. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := Nat.lt_of_lt_of_eq t.isLt N_1

/-- Row `r` of the block of rows staged at point `t`, as a row of the array. -/
def rowAt (t : Fin cfg1.N) (r : Fin 2000) : Fin 20000 :=
  ⟨t.val * 2000 + 1 * r.val, by have ht := point_lt t; have hr := r.isLt; omega⟩

/-! ## The body's stored value, entry by entry -/

/-- The contraction index of the block product is one axis of extent 512. -/
abbrev blockDot := dot_S2000x512_S512x256_S2000x256_1_0_0_1_n_n

theorem lhs_row (j : S2000x256.Idx) (k : blockDot.contr.Idx) : (blockDot.lhsIdx j k 0).val = (j 0).val := by
  unfold DotDims.lhsIdx
  rw [dif_neg (show ¬(0 : Fin S2000x512.rank) ∈ blockDot.lhsBatch by decide), dif_pos (show (0 : Fin S2000x512.rank) ∈ blockDot.lhsNonContracting by decide)]
  rfl
theorem lhs_col (j : S2000x256.Idx) (k : blockDot.contr.Idx) : (blockDot.lhsIdx j k 1).val = (k ⟨0, by decide⟩).val :=
  blockDot.lhsIdx_val_of_single rfl j k
theorem rhs_row (j : S2000x256.Idx) (k : blockDot.contr.Idx) : (blockDot.rhsIdx j k 0).val = (k ⟨0, by decide⟩).val :=
  blockDot.rhsIdx_val_of_single rfl j k
theorem rhs_col (j : S2000x256.Idx) (k : blockDot.contr.Idx) : (blockDot.rhsIdx j k 1).val = (j 1).val := by
  unfold DotDims.rhsIdx
  rw [dif_neg (show ¬(1 : Fin S512x256.rank) ∈ blockDot.rhsBatch by decide), dif_pos (show (1 : Fin S512x256.rank) ∈ blockDot.rhsNonContracting by decide)]
  rfl

/-- Entry `(r, q)` of what the body stores is the sum over `k` of the left block's `(r, k)` times the right block's
    `(k, q)`: the accumulator it adds to is zero. -/
theorem stored_apply (x0 : FVec Ideal S2000x512 .bf16) (x1 : FVec Ideal S512x256 .bf16) (r : Fin 2000) (q : Fin 256) :
    (k1_pay1 (F := Ideal) x0 x1 (ix2 r q) : EReal) = ∑ k : Fin 512, (x0 (ix2 r k) : EReal) * (x1 (ix2 k q) : EReal) := by
  unfold k1_pay1
  refine (Ideal.matmul_constant_zero_apply blockDot none _ _ (ix2 r q)).trans ?_
  rw [← Equiv.sum_comp (contrEquiv1 blockDot 512 rfl rfl).symm]
  refine Finset.sum_congr rfl fun k _ => ?_
  have hk := contrEquiv1_symm_val blockDot 512 rfl rfl k
  have el : blockDot.lhsIdx (ix2 r q) ((contrEquiv1 blockDot 512 rfl rfl).symm k) = ix2 r k := funext fun a => Fin.ext (by
    match a with
    | ⟨0, _⟩ => exact lhs_row _ _
    | ⟨1, _⟩ => exact (lhs_col _ _).trans hk)
  have er : blockDot.rhsIdx (ix2 r q) ((contrEquiv1 blockDot 512 rfl rfl).symm k) = ix2 k q := funext fun a => Fin.ext (by
    match a with
    | ⟨0, _⟩ => exact (rhs_row _ _).trans hk
    | ⟨1, _⟩ => exact rhs_col _ _)
  rw [el, er, shapeCast_self, shapeCast_self]

/-! ## The staged blocks, read off the arrays -/

/-- Entry `(r, k)` of the left operand's block at point `t` is entry `(2000·t + r, k)` of its array. -/
theorem left_block (c : Dev nD) (t : Fin cfg1.N) (r : Fin 2000) (k : Fin 512) :
    iblk1 V c 0 t (ix2 r k) = V c main_v74 (ix2 (rowAt t r) k) := by
  obtain ⟨e0, e1, -, -, -, -⟩ := index_facts t
  show V c main_v74 (((cfg1.win 0).blk t).view.emb (ix2 r k)) = V c main_v74 (ix2 (rowAt t r) k)
  refine congrArg (V c main_v74) (funext fun a => Fin.ext ?_)
  match a with
  | ⟨0, _⟩ => show win1_0.index t (0 : Fin 2) * 2000 + 1 * r.val = t.val * 2000 + 1 * r.val; rw [e0]
  | ⟨1, _⟩ => show win1_0.index t (1 : Fin 2) * 512 + 1 * k.val = k.val; rw [e1]; omega

/-- The right operand's block is its whole array at every point. -/
theorem right_block (c : Dev nD) (t : Fin cfg1.N) (k : Fin 512) (q : Fin 256) :
    iblk1 V c 1 t (ix2 k q) = V c main_v75 (ix2 k q) := by
  obtain ⟨-, -, e2, e3, -, -⟩ := index_facts t
  show V c main_v75 (((cfg1.win 1).blk t).view.emb (ix2 k q)) = V c main_v75 (ix2 k q)
  refine congrArg (V c main_v75) (funext fun a => Fin.ext ?_)
  match a with
  | ⟨0, _⟩ => show win1_1.index t (0 : Fin 2) * 512 + 1 * k.val = k.val; rw [e2]; omega
  | ⟨1, _⟩ => show win1_1.index t (1 : Fin 2) * 256 + 1 * q.val = q.val; rw [e3]; omega

/-- Entry `(r, q)` of the output's block at point `t` is entry `(2000·t + r, q)` of its array. -/
theorem out_block (t : Fin cfg1.N) (r : Fin 2000) (q : Fin 256) :
    ((cfg1.win 2).blk t).view.emb (ix2 r q) = ix2 (rowAt t r) q := by
  obtain ⟨-, -, -, -, e4, e5⟩ := index_facts t
  refine funext fun a => Fin.ext ?_
  match a with
  | ⟨0, _⟩ => show win1_2.index t (0 : Fin 2) * 2000 + 1 * r.val = t.val * 2000 + 1 * r.val; rw [e4]
  | ⟨1, _⟩ => show win1_2.index t (1 : Fin 2) * 256 + 1 * q.val = q.val; rw [e5]; omega

/-! ## What each point writes back, and the array after the last point -/

/-- The whole product of the two arrays the region finds. -/
abbrev whole (c : Dev nD) : S20000x256.Idx → EReal := Cert.Gcn.prod 256 (V c main_v74) (V c main_v75)

/-- Point `t` writes back block `t` of the whole product. -/
theorem flushed_eq (c : Dev nD) (t : Fin cfg1.N) :
    (dat1 (F := Ideal) V c).flushed 2 t = ((cfg1.win 2).blk t).view.read (Elt Ideal) (whole V c) := by
  show (cfg1.win 2).cut (grid1.coords t) ((dat1 V c).after 2 t) = _
  rw [after1_2]
  unfold out1_2
  rw [View.canon_unit_zero off_zero]
  simp only [View.ld_unit_zero (S := S2000x512) off_zero, View.ld_unit_zero (S := S512x256) off_zero]
  funext j
  obtain ⟨r, q, rfl⟩ : ∃ (r : Fin 2000) (q : Fin 256), j = ix2 r q := ⟨j 0, j 1, eq_ix2 j⟩
  show (k1_pay1 (F := Ideal) (iblk1 V c 0 t) (iblk1 V c 1 t) (ix2 r q) : EReal) = whole V c (((cfg1.win 2).blk t).view.emb (ix2 r q))
  rw [out_block t r q]
  refine (stored_apply (iblk1 V c 0 t) (iblk1 V c 1 t) r q).trans ?_
  refine Finset.sum_congr rfl fun k _ => ?_
  rw [left_block V c t r k, right_block V c t k q]

/-- An index of the output array is in point `t`'s block iff each coordinate is in the block's range on its axis. -/
theorem mem_block (t : Fin cfg1.N) (i : S20000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v76).slice (win1_2.rect t)).set ↔ _
  rw [View.set_slice_whole, Rect.mem_set_unit]
  exact Iff.rfl

/-- The ten blocks cover the array: row `i` is in the block of point `i / 2000`. -/
theorem covered (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have hN : cfg1.N = 10 := N_1
  let t : Fin cfg1.N := ⟨(i 0).val / 2000, by rw [hN]; omega⟩
  obtain ⟨-, -, -, -, e4, e5⟩ := index_facts t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 256 ≤ (i 1).val ∧ (i 1).val < win1_2.index t (1 : Fin 2) * 256 + 256; rw [e5]; omega

/-- THE OUTPUT ARRAY after the region: the whole product of the arrays it found. -/
theorem final (c : Dev nD) : (dat1 (F := Ideal) V c).arrAt 2 cfg1.N = whole V c :=
  (dat1 V c).arrAt_eq_of_cover 2 (whole V c) (fun t _ => flushed_eq V c t) covered

end Cert.KernelIdeal.Region1

end
-- ==== Proof.HostLayer2.lean ====
/-
  The second layer of the idealized kernel, and with it the value of its result buffer.

  Between the two pallas_calls the host builds the index vectors and edge weights again from `edge_index` — the
  same operations as before the first call, so again the reference's own stages — and casts the first layer's result
  and the second weight to bf16. The second call's output array is the product of the two cast arrays, on extended
  reals the host's `dot_general` of the first layer's result and the second weight. The last two stretches gather,
  scale, scatter-add, add the second bias and rectify: the reference's last stage `val_main_v89` of the kernel's own
  six arguments. The argument arrays are written by nothing, so each boundary finds them as launched.
-/
import proofs.«133479_j6786048328632_1_alg».proof.Proof.HostLayer1
import proofs.«133479_j6786048328632_1_alg».proof.Proof.Region1

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.StableHlo
open Cert.ReferenceIdeal.Read (val_main_v44 val_main_v48 val_main_v51 val_main_v71 val_main_v72 val_main_v89)

variable (m : (ℓ : Loc nD τ sig) → Buf (Elt Ideal) ℓ) (ρ : Dev nD → PrngReg)

/-! ## The arguments, as the stretch between the calls finds them -/

/-- No host operation and no call writes an argument array: read after the first layer, it is as launched. -/
theorem edges_kept (c : Dev nD) : W4 m ρ c (Proc.devRef .tc main_arg1) = m ((c.tc : Thread nD τ).loc main_arg1) := by
  show StableHlo.after hostOps1_1 (StableHlo.after hostOps1 (W2 m ρ c)) (Proc.devRef .tc main_arg1) = _
  walk [hostOps1_1, hostOps1]
  rw [Layer1.exit_keep m ρ c (r := main_arg1) (by decide)]
  show StableHlo.after hostOps0 (W0 m ρ c) (Proc.devRef .tc main_arg1) = _
  walk [hostOps0] <;> rfl

theorem weight_kept (c : Dev nD) : W4 m ρ c (Proc.devRef .tc main_arg4) = m ((c.tc : Thread nD τ).loc main_arg4) := by
  show StableHlo.after hostOps1_1 (StableHlo.after hostOps1 (W2 m ρ c)) (Proc.devRef .tc main_arg4) = _
  walk [hostOps1_1, hostOps1]
  rw [Layer1.exit_keep m ρ c (r := main_arg4) (by decide)]
  show StableHlo.after hostOps0 (W0 m ρ c) (Proc.devRef .tc main_arg4) = _
  walk [hostOps0] <;> rfl

theorem bias_kept (c : Dev nD) : W4 m ρ c (Proc.devRef .tc main_arg5) = m ((c.tc : Thread nD τ).loc main_arg5) := by
  show StableHlo.after hostOps1_1 (StableHlo.after hostOps1 (W2 m ρ c)) (Proc.devRef .tc main_arg5) = _
  walk [hostOps1_1, hostOps1]
  rw [Layer1.exit_keep m ρ c (r := main_arg5) (by decide)]
  show StableHlo.after hostOps0 (W0 m ρ c) (Proc.devRef .tc main_arg5) = _
  walk [hostOps0] <;> rfl

/-! ## Between the calls -/

/-- Whatever contents `V` the stretch between the calls is entered with, it rebuilds the source indices from what
    `V` holds at `edge_index`. -/
theorem src_of (V : Valuation τ sig (Elt Ideal)) :
    StableHlo.after hostOps1_2 V (Proc.devRef .tc main_v50) = val_main_v48 (F := Ideal) (V (Proc.devRef .tc main_arg1)) := by
  walk [hostOps1_2] <;> rfl

/-- The source indices again. -/
theorem src_idx (c : Dev nD) : W5 m ρ c (Proc.devRef .tc main_v50) = val_main_v48 (F := Ideal) (m ((c.tc : Thread nD τ).loc main_arg1)) :=
  (src_of (W4 m ρ c)).trans (congrArg (val_main_v48 (F := Ideal)) (edges_kept m ρ c))

/-- … and the target indices. -/
theorem dst_of (V : Valuation τ sig (Elt Ideal)) :
    StableHlo.after hostOps1_2 V (Proc.devRef .tc main_v53) = val_main_v51 (F := Ideal) (V (Proc.devRef .tc main_arg1)) := by
  walk [hostOps1_2] <;> rfl

/-- The target indices again. -/
theorem dst_idx (c : Dev nD) : W5 m ρ c (Proc.devRef .tc main_v53) = val_main_v51 (F := Ideal) (m ((c.tc : Thread nD τ).loc main_arg1)) :=
  (dst_of (W4 m ρ c)).trans (congrArg (val_main_v51 (F := Ideal)) (edges_kept m ρ c))

set_option maxHeartbeats 4000000 in
/-- … and the edge weights `rsqrt(deg)[src] · rsqrt(deg)[dst]`. -/
theorem weight_of (V : Valuation τ sig (Elt Ideal)) :
    StableHlo.after hostOps1_2 V (Proc.devRef .tc main_v73) = val_main_v71 (F := Ideal) (V (Proc.devRef .tc main_arg1)) := by
  walk [hostOps1_2] <;> rfl

/-- The edge weights again. -/
theorem edge_weight (c : Dev nD) : W5 m ρ c (Proc.devRef .tc main_v73) = val_main_v71 (F := Ideal) (m ((c.tc : Thread nD τ).loc main_arg1)) :=
  (weight_of (W4 m ρ c)).trans (congrArg (val_main_v71 (F := Ideal)) (edges_kept m ρ c))

/-- The first layer's result, cast to bf16. -/
theorem hidden_cast (c : Dev nD) :
    W5 m ρ c (Proc.devRef .tc main_v74) = truncf (F := Ideal) .bf16 (W4 m ρ c (Proc.devRef .tc main_v46)) bitsLt_bf16_f32 := by
  show StableHlo.after hostOps1_2 (W4 m ρ c) (Proc.devRef .tc main_v74) = _
  generalize W4 m ρ c = V
  walk [hostOps1_2] <;> rfl

/-- The second weight, cast to bf16. -/
theorem weight_cast (c : Dev nD) :
    W5 m ρ c (Proc.devRef .tc main_v75) = truncf (F := Ideal) .bf16 (m ((c.tc : Thread nD τ).loc main_arg4)) bitsLt_bf16_f32 := by
  have h4 := weight_kept m ρ c
  show StableHlo.after hostOps1_2 (W4 m ρ c) (Proc.devRef .tc main_v75) = _
  generalize W4 m ρ c = V at h4 ⊢
  walk [hostOps1_2, h4] <;> rfl

/-- The second bias is as launched when the second call is entered. -/
theorem bias_entry (c : Dev nD) : W5 m ρ c (Proc.devRef .tc main_arg5) = m ((c.tc : Thread nD τ).loc main_arg5) := by
  have h5 := bias_kept m ρ c
  show StableHlo.after hostOps1_2 (W4 m ρ c) (Proc.devRef .tc main_arg5) = _
  generalize W4 m ρ c = V at h5 ⊢
  walk [hostOps1_2, h5] <;> rfl

/-! ## The second call's exit -/

/-- After the second call its output array is the host's `dot_general` of the first layer's result and the second
    weight: the reference's stage `val_main_v72`. -/
theorem exit_out (c : Dev nD) :
    W6 m ρ c (Proc.devRef .tc main_v76)
      = val_main_v72 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine ((W6_arr m ρ c 2).trans (Region1.final (V5 m ρ) c)).trans ?_
  show Cert.Gcn.prod 256 (W5 m ρ c (Proc.devRef .tc main_v74)) (W5 m ρ c (Proc.devRef .tc main_v75)) = _
  rw [hidden_cast, weight_cast, Layer1.cast_id, Layer1.cast_id, Layer1.layer_out]
  exact (Cert.ReferenceIdeal.Dense.dot2_eq _ _).symm

/-- Every buffer that is not one of the call's three arrays leaves it as it entered. -/
theorem exit_keep (c : Dev nD) {r : Ref sig .tc} (h : ∀ w, Pipeline.arrRef spec1 w ≠ r) :
    W6 m ρ c (no_index (Proc.devRef .tc r)) = W5 m ρ c (Proc.devRef .tc r) :=
  W6_of_ne m ρ c r h

/-! ## After the second call: the result -/

set_option maxHeartbeats 4000000 in
/-- The kernel's result buffer holds the reference's last stage `val_main_v89` of the kernel's own six arguments. -/
theorem result_eq (c : Dev nD) :
    W8 m ρ c (Proc.devRef .tc main_v93)
      = val_main_v89 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show StableHlo.after hostOps2_1 (StableHlo.after hostOps2 (W6 m ρ c)) (Proc.devRef .tc main_v93) = _
  walk [hostOps2_1, hostOps2]
  rw [exit_keep m ρ c (r := main_v50) (by decide), exit_keep m ρ c (r := main_v53) (by decide), exit_keep m ρ c (r := main_v73) (by decide),
    exit_keep m ρ c (r := main_arg5) (by decide), exit_out, src_idx, dst_idx, edge_weight, bias_entry]
  rfl

end Cert.KernelIdeal.Layer2

end
-- ==== Proof.lean ====
/-
  Two layers of a graph convolution, `relu(Â (h W) + b)`, computed two ways. Both programs build the same index
  vectors from `edge_index` (sources and targets, each followed by a self-loop per node), the same degree
  normalisation `rsqrt(deg)[src] · rsqrt(deg)[dst]`, and apply the same gather, scaling, scatter-add, bias and
  rectifier. They differ in the dense step `h W` alone: the kernel casts both operands to bf16 and multiplies them
  in ten blocks of 2000 rows on the matrix unit, each block into a zero accumulator; the reference takes one
  `dot_general` of the whole arrays.

  On the extended reals a change of float format is the identity, and a block's row `r` at grid point `t` is row
  `2000·t + r` of the array, so each block product is the corresponding rows of `Σ_k h[i,k] · W[k,j]` and the ten
  blocks together are the whole product (Region0, Region1, Product); the host's `dot_general` is the same sum
  (RefProduct). Only `0 + s = s` and the arithmetic of rows are used: no distributivity, no cancellation, so the
  inputs' finiteness is never needed, and whatever `edge_index` holds goes through the same gather and scatter on
  both sides. The kernel's result buffer therefore holds the reference's composition of host operations of the
  kernel's own arguments (HostLayer1, HostLayer2 over the run of KernelRun), which is what the reference's run ends with when
  the two memories agree on the arguments.

  The frames are the generated ones; the idealization rewrote no operation, so `preserves` has nothing to state.
-/
import proofs.«133479_j6786048328632_1_alg».proof.Defs
import proofs.«133479_j6786048328632_1_alg».proof.Proof.KernelRun
import proofs.«133479_j6786048328632_1_alg».proof.Proof.HostLayer2
import proofs.«133479_j6786048328632_1_alg».proof.Proof.Gen.Kernel
import proofs.«133479_j6786048328632_1_alg».proof.Proof.Gen.Kernel.Skeleton
import proofs.«133479_j6786048328632_1_alg».proof.Proof.Gen.Kernel.Launch
import proofs.«133479_j6786048328632_1_alg».proof.Proof.Gen.Kernel.Points
import proofs.«133479_j6786048328632_1_alg».proof.Proof.Gen.Kernel.Frame
import proofs.«133479_j6786048328632_1_alg».proof.Proof.Gen.KernelIdeal
import proofs.«133479_j6786048328632_1_alg».proof.Proof.Gen.KernelIdeal.Skeleton
import proofs.«133479_j6786048328632_1_alg».proof.Proof.Gen.KernelIdeal.Launch
import proofs.«133479_j6786048328632_1_alg».proof.Proof.Gen.KernelIdeal.Points
import proofs.«133479_j6786048328632_1_alg».proof.Proof.Gen.KernelIdeal.Frame
import proofs.«133479_j6786048328632_1_alg».proof.Proof.Gen.ReferenceIdeal
import proofs.«133479_j6786048328632_1_alg».proof.Proof.Gen.ReferenceIdeal.Run
import proofs.«133479_j6786048328632_1_alg».proof.Proof.Gen.ReferenceIdeal.Read
import proofs.«133479_j6786048328632_1_alg».proof.Proof.Gen.Pre_finite_inputs
import Idealize.ShloMosaic.Adequacy
import Idealize.ShloMosaic.Init

noncomputable section

namespace Cert.Proof

open Idealize.ShloMosaic Idealize.SL.Sem

/-- The word-level kernel runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the reference's composition of host
    operations of those arguments in their result buffers. -/
theorem algebraic : Cert.algebraic_KernelIdeal_ReferenceIdeal := by
  intro m ρ m' ρ' _ hagree
  refine ⟨fun c => Cert.ReferenceIdeal.Read.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Layer2.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
